-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_arg14 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096, .f32⟩
  | .hbm, ⟨20, _⟩ => ⟨S1x4096, .f32⟩
  | .hbm, ⟨21, _⟩ => ⟨S8192x1024, .f32⟩
  | .hbm, ⟨22, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S8192x4096, .f32⟩
  | .hbm, ⟨20, _⟩ => ⟨S1024x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.CellRun.lean ====
/-
  The frame of the LSTM-cell program: it runs to the end, faults nowhere, and leaves its fifteen argument arrays
  as launched.

  @main is six host operations (three concatenations of the four gates' weights and biases in the order i, f, g, o,
  two changes of format and one reshape of the bias to a row), then one region over 32 grid points. At point t the
  region stages rows 256·t … 256·t+255 of x, h and c_prev, keeps the two stacked weight matrices and the bias row
  resident, and writes back rows 256·t … 256·t+255 of h_next and c_next.

  What is proved here, at any float instance: each host operation writes only its own result buffer, so the
  arguments reach the region unchanged; at every point each input buffer holds that window's block of its array;
  the body run on those blocks stores, into each output buffer whole, the gate arithmetic of the blocks
  (the two payload terms); hence the body obligation, the run of the whole region, and the frame.
  The run's post also names each output array after the last write-back, which the value proof reads.
-/
import proofs.«133425_j29850022707330_2_alg».proof.Proof.Gen.Kernel.Launch
import proofs.«133425_j29850022707330_2_alg».proof.Proof.Gen.Kernel.Skeleton
import proofs.«133425_j29850022707330_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the six host operations. -/
abbrev V (c : Dev nD) (b : Ref sig .tc) : Buf (Elt F) ((c : Thread nD τ).loc b) := StableHlo.after hostOps0 (fun b => m (c, b)) b

/-- No host operation leaves a buffer at undetermined contents. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the six host operations writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`: the rows of its array the point works on (the whole array for a resident window). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block at every point, whether the pipeline fetched it there or the
    block index has not moved since it did (the three resident windows after the first point). -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From a run of the region to the frame -/

/-- A run ending with every window's array at what the proof data computes and every other unscoped buffer as the
    region found it leaves the fifteen arguments as launched: x, h, c_prev are inputs the region never writes, the
    other twelve are read by the host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- The whole of a [256, 1024] buffer, of a stacked weight matrix, of the bias row. -/
abbrev rBlock : Rect S256x1024 := Rect.unit (s := S256x1024) ![0, 0] S256x1024.size inb_S256x1024_S256x1024_0_0
abbrev rWeights : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-! ## What the body leaves in the two output buffers -/

/-- The h_next buffer after the body: one store of the whole block, o · tanh(c_next) of the input blocks. -/
def hOut (x h cp : Vec F S256x1024 .f32) (wx wh : Vec F S4096x1024 .bf16) (b : Vec F S1x4096 .f32) : Vec F S256x1024 .f32 :=
  View.canon [⟨rBlock, k0_pay3 (View.ld x rBlock) (View.ld h rBlock) (View.ld wx rWeights) (View.ld wh rWeights) (View.ld b rBias) (View.ld cp rBlock)⟩]

/-- The c_next buffer after the body: one store of the whole block, f · c_prev + i · g of the input blocks. -/
def cOut (x h cp : Vec F S256x1024 .f32) (wx wh : Vec F S4096x1024 .bf16) (b : Vec F S1x4096 .f32) : Vec F S256x1024 .f32 :=
  View.canon [⟨rBlock, k0_pay2 (View.ld x rBlock) (View.ld h rBlock) (View.ld wx rWeights) (View.ld wh rWeights) (View.ld b rBias) (View.ld cp rBlock)⟩]

/-- One store through the whole-buffer rectangle covers the buffer. -/
theorem cover_block (p0 : Vec F S256x1024 .f32) (y : S256x1024.Idx) :
    ∃ pc ∈ ([⟨rBlock, p0⟩] : List (View.Piece (Elt F) S256x1024 .f32)), y ∈ pc.1.set :=
  View.cover_of_tiled [⟨rBlock, p0⟩] S256x1024.size (by rfl) y

/-! ## The body's triple -/

set_option maxHeartbeats 1000000 in
/-- The body on whole staging memrefs — the six inputs at read contents, the two outputs at anything — runs to the
    continuation with the inputs as they were and the outputs at `hOut` and `cOut` of the inputs. -/
theorem sound_kernel (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S4096x1024 .bf16) (h4 : a4.IsWhole)
    (a5 : Memref sig .tc .vmem S4096x1024 .bf16) (h5 : a5.IsWhole) (a6 : Memref sig .tc .vmem S1x4096 .f32) (h6 : a6.IsWhole)
    (a7 : Memref sig .tc .vmem S256x1024 .f32) (h7 : a7.IsWhole) (a8 : Memref sig .tc .vmem S256x1024 .f32) (h8 : a8.IsWhole)
    (x h cp : Vec F S256x1024 .f32) (wx wh : Vec F S4096x1024 .bf16) (b : Vec F S1x4096 .f32) (K : PUnit → sProp 𝕄) :
    iprop(owns (c : Thread nD τ) a1 fullShare x ∗ owns (c : Thread nD τ) a2 fullShare h ∗ owns (c : Thread nD τ) a3 fullShare cp
        ∗ owns (c : Thread nD τ) a4 fullShare wx ∗ owns (c : Thread nD τ) a5 fullShare wh ∗ owns (c : Thread nD τ) a6 fullShare b
        ∗ (∃ d, owns (c : Thread nD τ) a7 fullShare d) ∗ (∃ d, owns (c : Thread nD τ) a8 fullShare d)
        ∗ (iprop(owns (c : Thread nD τ) a1 fullShare x ∗ owns (c : Thread nD τ) a2 fullShare h ∗ owns (c : Thread nD τ) a3 fullShare cp
            ∗ owns (c : Thread nD τ) a4 fullShare wx ∗ owns (c : Thread nD τ) a5 fullShare wh ∗ owns (c : Thread nD τ) a6 fullShare b
            ∗ owns (c : Thread nD τ) a7 fullShare (hOut x h cp wx wh b) ∗ owns (c : Thread nD τ) a8 fullShare (cOut x h cp wx wh b)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_block _)
  iexists _; isplitr
  swap; · iexact H8
  ipureintro
  exact View.read_writes_eq_canon _ _ _ (cover_block _)

/-! ## The proof data -/

/-- On core `c`: the arrays as the region finds them; after the body at point `t` each input buffer still at its block,
    the two output buffers at `hOut` / `cOut` of the six input blocks; nothing else is used, owed or shared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation -/

/-- What the body is called with at point `t`, the eight windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with each window's array at what the proof data computes after the
    last write-back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Cell

end
-- ==== Proof.CellRunIdeal.lean ====
/-
  The frame of the LSTM-cell program: it runs to the end, faults nowhere, and leaves its fifteen argument arrays
  as launched.

  @main is six host operations (three concatenations of the four gates' weights and biases in the order i, f, g, o,
  two changes of format and one reshape of the bias to a row), then one region over 32 grid points. At point t the
  region stages rows 256·t … 256·t+255 of x, h and c_prev, keeps the two stacked weight matrices and the bias row
  resident, and writes back rows 256·t … 256·t+255 of h_next and c_next.

  What is proved here, at any float instance: each host operation writes only its own result buffer, so the
  arguments reach the region unchanged; at every point each input buffer holds that window's block of its array;
  the body run on those blocks stores, into each output buffer whole, the gate arithmetic of the blocks
  (the two payload terms); hence the body obligation, the run of the whole region, and the frame.
  The run's post also names each output array after the last write-back, which the value proof reads.
-/
import proofs.«133425_j29850022707330_2_alg».proof.Proof.Gen.KernelIdeal.Launch
import proofs.«133425_j29850022707330_2_alg».proof.Proof.Gen.KernelIdeal.Skeleton
import proofs.«133425_j29850022707330_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the six host operations. -/
abbrev V (c : Dev nD) (b : Ref sig .tc) : Buf (Elt F) ((c : Thread nD τ).loc b) := StableHlo.after hostOps0 (fun b => m (c, b)) b

/-- No host operation leaves a buffer at undetermined contents. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the six host operations writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- None of the six host operations writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`: the rows of its array the point works on (the whole array for a resident window). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block at every point, whether the pipeline fetched it there or the
    block index has not moved since it did (the three resident windows after the first point). -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From a run of the region to the frame -/

/-- A run ending with every window's array at what the proof data computes and every other unscoped buffer as the
    region found it leaves the fifteen arguments as launched: x, h, c_prev are inputs the region never writes, the
    other twelve are read by the host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- The whole of a [256, 1024] buffer, of a stacked weight matrix, of the bias row. -/
abbrev rBlock : Rect S256x1024 := Rect.unit (s := S256x1024) ![0, 0] S256x1024.size inb_S256x1024_S256x1024_0_0
abbrev rWeights : Rect S4096x1024 := Rect.unit (s := S4096x1024) ![0, 0] S4096x1024.size inb_S4096x1024_S4096x1024_0_0
abbrev rBias : Rect S1x4096 := Rect.unit (s := S1x4096) ![0, 0] S1x4096.size inb_S1x4096_S1x4096_0_0

/-! ## What the body leaves in the two output buffers -/

/-- The h_next buffer after the body: one store of the whole block, o · tanh(c_next) of the input blocks. -/
def hOut (x h cp : Vec F S256x1024 .f32) (wx wh : Vec F S4096x1024 .bf16) (b : Vec F S1x4096 .f32) : Vec F S256x1024 .f32 :=
  View.canon [⟨rBlock, k0_pay3 (View.ld x rBlock) (View.ld h rBlock) (View.ld wx rWeights) (View.ld wh rWeights) (View.ld b rBias) (View.ld cp rBlock)⟩]

/-- The c_next buffer after the body: one store of the whole block, f · c_prev + i · g of the input blocks. -/
def cOut (x h cp : Vec F S256x1024 .f32) (wx wh : Vec F S4096x1024 .bf16) (b : Vec F S1x4096 .f32) : Vec F S256x1024 .f32 :=
  View.canon [⟨rBlock, k0_pay2 (View.ld x rBlock) (View.ld h rBlock) (View.ld wx rWeights) (View.ld wh rWeights) (View.ld b rBias) (View.ld cp rBlock)⟩]

/-- One store through the whole-buffer rectangle covers the buffer. -/
theorem cover_block (p0 : Vec F S256x1024 .f32) (y : S256x1024.Idx) :
    ∃ pc ∈ ([⟨rBlock, p0⟩] : List (View.Piece (Elt F) S256x1024 .f32)), y ∈ pc.1.set :=
  View.cover_of_tiled [⟨rBlock, p0⟩] S256x1024.size (by rfl) y

/-! ## The body's triple -/

set_option maxHeartbeats 1000000 in
/-- The body on whole staging memrefs — the six inputs at read contents, the two outputs at anything — runs to the
    continuation with the inputs as they were and the outputs at `hOut` and `cOut` of the inputs. -/
theorem sound_kernel (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S4096x1024 .bf16) (h4 : a4.IsWhole)
    (a5 : Memref sig .tc .vmem S4096x1024 .bf16) (h5 : a5.IsWhole) (a6 : Memref sig .tc .vmem S1x4096 .f32) (h6 : a6.IsWhole)
    (a7 : Memref sig .tc .vmem S256x1024 .f32) (h7 : a7.IsWhole) (a8 : Memref sig .tc .vmem S256x1024 .f32) (h8 : a8.IsWhole)
    (x h cp : Vec F S256x1024 .f32) (wx wh : Vec F S4096x1024 .bf16) (b : Vec F S1x4096 .f32) (K : PUnit → sProp 𝕄) :
    iprop(owns (c : Thread nD τ) a1 fullShare x ∗ owns (c : Thread nD τ) a2 fullShare h ∗ owns (c : Thread nD τ) a3 fullShare cp
        ∗ owns (c : Thread nD τ) a4 fullShare wx ∗ owns (c : Thread nD τ) a5 fullShare wh ∗ owns (c : Thread nD τ) a6 fullShare b
        ∗ (∃ d, owns (c : Thread nD τ) a7 fullShare d) ∗ (∃ d, owns (c : Thread nD τ) a8 fullShare d)
        ∗ (iprop(owns (c : Thread nD τ) a1 fullShare x ∗ owns (c : Thread nD τ) a2 fullShare h ∗ owns (c : Thread nD τ) a3 fullShare cp
            ∗ owns (c : Thread nD τ) a4 fullShare wx ∗ owns (c : Thread nD τ) a5 fullShare wh ∗ owns (c : Thread nD τ) a6 fullShare b
            ∗ owns (c : Thread nD τ) a7 fullShare (hOut x h cp wx wh b) ∗ owns (c : Thread nD τ) a8 fullShare (cOut x h cp wx wh b)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_block _)
  iexists _; isplitr
  swap; · iexact H8
  ipureintro
  exact View.read_writes_eq_canon _ _ _ (cover_block _)

/-! ## The proof data -/

/-- On core `c`: the arrays as the region finds them; after the body at point `t` each input buffer still at its block,
    the two output buffers at `hOut` / `cOut` of the six input blocks; nothing else is used, owed or shared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hOut (iblk m c 0 t) (iblk m c 1 t) (iblk m c 2 t) (iblk m c 3 t) (iblk m c 4 t) (iblk m c 5 t)
    | ⟨7, _⟩ => cOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hOut (iblk m c 0 t) (iblk m c 1 t) (iblk m c 2 t) (iblk m c 3 t) (iblk m c 4 t) (iblk m c 5 t) := by dsimp only [dats]
theorem after7 (c : Dev nD) (t : Fin cfg0.N) : (dats m 0 c).after 7 t = cOut (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation -/

/-- What the body is called with at point `t`, the eight windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with each window's array at what the proof data computes after the
    last write-back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Cell

end
-- ==== Proof.LibDotRows.lean ====
/-
  A product of two matrices stored row by row, read at an index written by coordinates.

  For dimension numbers that contract the LAST axis of both operands — no batch axis, `[M, K] · [N, K] → [M, N]`, the
  product of the left matrix with the transpose of the right one — the product reads, at `(p, j)`,
  `Σ_k lhs (p, k) · rhs (j, k)` over the `K` values of the contracted coordinate.  This holds for the device's
  product accumulated into the zero splat (the accumulator contributes `0`) and for the host's `dot_general` alike, so
  the two agree entry by entry.  The dimension numbers enter only through four facts about where they send an output
  index and a contraction index (`hl0 … hr1`), which hold by unfolding for any record of this form.  General: nothing
  here mentions a program.
-/
import Idealize.ShloMosaic.PureOps.Ideal.Laws
import Idealize.ShloMosaic.Lib.ValueIdx

noncomputable section

namespace Cert.LibDotRows

open Idealize.ShloMosaic Idealize.ShloMosaic.ValueIdx

/-- The operand indices of the contraction, re-indexed by the contracted coordinate. -/
theorem sum_rows {M K N : ℕ} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : (⟨2, ![M, K]⟩ : Shape).Idx → EReal) (rhs : (⟨2, ![N, K]⟩ : Shape).Idx → EReal) (p : Fin M) (j : Fin N) :
    (∑ q : D.contr.Idx, lhs (D.lhsIdx (ix2 p j) q) * rhs (D.rhsIdx (ix2 p j) q))
      = ∑ k : Fin K, lhs (ix2 p k) * rhs (ix2 j k) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

/-- `[M, K] · [N, K]` on the device into the zero splat, at `(p, j)`, is `Σ_k lhs (p, k) · rhs (j, k)`. -/
theorem matmul_zero_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    FloatOps.matmul D prec lhs rhs (constant ⟨2, ![M, N]⟩ .f32 0x00000000#32) (ix2 p j)
      = ∑ k : Fin K, lhs (ix2 p k) * rhs (ix2 j k) := by
  rw [Ideal.matmul_constant_zero_apply]
  exact sum_rows D hr hs hl0 hl1 hr0 hr1 lhs rhs p j

/-- The host's `[M, K] · [N, K]`, at `(p, j)`, is `Σ_k lhs (p, k) · rhs (j, k)`. -/
theorem dotGeneral_at {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (j : Fin N) :
    Host.dotGeneral D prec lhs rhs (ix2 p j) = ∑ k : Fin K, lhs (ix2 p k) * rhs (ix2 j k) := by
  show FloatOps.dotGeneral D prec .single lhs rhs (ix2 p j) = _
  rw [Ideal.dotGeneral_apply]
  exact sum_rows D hr hs hl0 hl1 hr0 hr1 lhs rhs p j

end Cert.LibDotRows

end
-- ==== Proof.CellSpec.lean ====
/-
  The LSTM cell, entry by entry, on the extended reals.

  For one row of the batch, with x-row `xr` and h-row `hr` (1024 entries each), the stacked weights `Wx`, `Wh`
  (4096 rows: the gates i, f, g, o, 1024 rows each) and the stacked bias `b`, gate column `j` has the pre-activation

      pre j = (Σ_k xr k · Wx (j, k) + Σ_k hr k · Wh (j, k)) + b j,

  and column `q` of the new state is

      c' q = σ (pre (1024 + q)) · c q + σ (pre q) · tanh (pre (2048 + q)),     h' q = σ (pre (3072 + q)) · tanh (c' q),

  with σ the logistic function 1 / (1 + e^(−z)), all operations those of the extended reals.  The two result arrays
  are these read at every row of the [8192, 1024] activations.  Nothing here mentions a program.
-/
import Idealize.ShloMosaic.PureOps.Ideal
import Idealize.ShloMosaic.Lib.ValueIdx

noncomputable section

namespace Cert.CellSpec

open Idealize.ShloMosaic Idealize.ShloMosaic.ValueIdx

/-- The activations, a stack of four gates' weights, a stack of four gates' biases. -/
abbrev Acts : Shape := ⟨2, ![8192, 1024]⟩
abbrev Stack : Shape := ⟨2, ![4096, 1024]⟩
abbrev Biases : Shape := ⟨1, ![4096]⟩

/-- Column `q` of the input, forget, candidate and output gate among the 4096 stacked columns. -/
abbrev colI (q : Fin 1024) : Fin 4096 := ⟨q.val, by have := q.isLt; omega⟩
abbrev colF (q : Fin 1024) : Fin 4096 := ⟨1024 + q.val, by have := q.isLt; omega⟩
abbrev colG (q : Fin 1024) : Fin 4096 := ⟨2048 + q.val, by have := q.isLt; omega⟩
abbrev colO (q : Fin 1024) : Fin 4096 := ⟨3072 + q.val, by have := q.isLt; omega⟩

/-- The pre-activation of gate column `j` for one row. -/
def pre (xr hr : Fin 1024 → EReal) (Wx Wh : Stack.Idx → EReal) (b : Biases.Idx → EReal) (j : Fin 4096) : EReal :=
  (∑ k : Fin 1024, xr k * Wx (ix2 j k)) + (∑ k : Fin 1024, hr k * Wh (ix2 j k)) + b (ix1 j)

/-- Column `q` of the new cell state for one row, from the old state's entry `cp`. -/
def cellAt (xr hr : Fin 1024 → EReal) (Wx Wh : Stack.Idx → EReal) (b : Biases.Idx → EReal) (cp : EReal) (q : Fin 1024) : EReal :=
  Ideal.logistic (pre xr hr Wx Wh b (colF q)) * cp
    + Ideal.logistic (pre xr hr Wx Wh b (colI q)) * Ideal.tanh (pre xr hr Wx Wh b (colG q))

/-- Column `q` of the new hidden state for one row. -/
def hiddenAt (xr hr : Fin 1024 → EReal) (Wx Wh : Stack.Idx → EReal) (b : Biases.Idx → EReal) (cp : EReal) (q : Fin 1024) : EReal :=
  Ideal.logistic (pre xr hr Wx Wh b (colO q)) * Ideal.tanh (cellAt xr hr Wx Wh b cp q)

/-- The new cell state as an array. -/
def cNext (X H C : Acts.Idx → EReal) (Wx Wh : Stack.Idx → EReal) (b : Biases.Idx → EReal) : Acts.Idx → EReal := fun i =>
  cellAt (fun k => X (ix2 (i 0) k)) (fun k => H (ix2 (i 0) k)) Wx Wh b (C i) (i 1)

/-- The new hidden state as an array. -/
def hNext (X H C : Acts.Idx → EReal) (Wx Wh : Stack.Idx → EReal) (b : Biases.Idx → EReal) : Acts.Idx → EReal := fun i =>
  hiddenAt (fun k => X (ix2 (i 0) k)) (fun k => H (ix2 (i 0) k)) Wx Wh b (C i) (i 1)

/-- The float pattern of 1.0 denotes the real number 1. -/
theorem ofBits_one : Ideal.ofBits .f32 0x3F800000#32 = 1 := by
  simp [Ideal.ofBits, Ideal.ieee, -EReal.coe_mul]; norm_num

/-- The logistic function spelt out with the host's division, exponential and negation and the literal 1.0. -/
theorem logistic_spelt (z : EReal) :
    Ideal.div (Ideal.ofBits .f32 0x3F800000#32) (Ideal.ofBits .f32 0x3F800000#32 + Ideal.exp (-z)) = Ideal.logistic z := by
  rw [ofBits_one]; rfl

end Cert.CellSpec

end
-- ==== Proof.CellBlock.lean ====
/-
  The body's arithmetic at one entry of a block.

  On blocks x, h, c_prev of 256 rows, the whole stacked weights and the bias row, the body forms
  z = (x · Wxᵀ + h · Whᵀ) + bias (the bias row repeated on every row), cuts z into the four gates' 1024 columns, and
  stores f · c_prev + i · g and o · tanh (f · c_prev + i · g).  Read at row u and column q these are the
  specification's `cellAt` and `hiddenAt` of row u of x and of h: each product with a transposed weight stack is a sum
  over the 1024 contracted coordinates, a change of float format and a same-shape cast are the identity, the
  repeated bias row reads the row's entry, and column q of the gate at offset 1024·g is column 1024·g + q of z.
-/
import proofs.«133425_j29850022707330_2_alg».proof.Proof.Gen.KernelIdeal.Skeleton
import proofs.«133425_j29850022707330_2_alg».proof.Proof.LibDotRows
import proofs.«133425_j29850022707330_2_alg».proof.Proof.CellSpec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.CellSpec

/-- The dimension numbers of both products: the last axis of each operand contracted, no batch axis. -/
abbrev DD : DotDims S256x1024 S4096x1024 S256x4096 := dot_S256x1024_S4096x1024_S256x4096_1_1_0_0_n_n

/-! Where the dimension numbers send an output index and a contraction index. -/
theorem lhs0 (i : S256x4096.Idx) (q : DD.contr.Idx) : (DD.lhsIdx i q 0).val = (i 0).val := by
  unfold DotDims.lhsIdx
  rw [dif_neg (show ¬(0 : Fin S256x1024.rank) ∈ DD.lhsBatch by decide), dif_pos (show (0 : Fin S256x1024.rank) ∈ DD.lhsNonContracting by decide)]
  rfl
theorem lhs1 (i : S256x4096.Idx) (q : DD.contr.Idx) : (DD.lhsIdx i q 1).val = (q ⟨0, by decide⟩).val :=
  DD.lhsIdx_val_of_single rfl i q
theorem rhs0 (i : S256x4096.Idx) (q : DD.contr.Idx) : (DD.rhsIdx i q 0).val = (i 1).val := by
  unfold DotDims.rhsIdx
  rw [dif_neg (show ¬(0 : Fin S4096x1024.rank) ∈ DD.rhsBatch by decide), dif_pos (show (0 : Fin S4096x1024.rank) ∈ DD.rhsNonContracting by decide)]
  rfl
theorem rhs1 (i : S256x4096.Idx) (q : DD.contr.Idx) : (DD.rhsIdx i q 1).val = (q ⟨0, by decide⟩).val :=
  DD.rhsIdx_val_of_single rfl i q

/-- The bias row as the specification's one-axis stack of biases. -/
abbrev biasOf (b : Vec Ideal S1x4096 .f32) : Biases.Idx → EReal := fun j => b (ix2 (0 : Fin 1) (j 0))

/-- Row u, gate column j of z is the specification's pre-activation of row u. -/
theorem pre_at (x h : Vec Ideal S256x1024 .f32) (wx wh : Vec Ideal S4096x1024 .bf16) (b : Vec Ideal S1x4096 .f32) (u : Fin 256) (j : Fin 4096) :
    k0_pay1 (F := Ideal) x h wx wh b (ix2 u j)
      = pre (fun k => x (ix2 u k)) (fun k => h (ix2 u k)) wx wh (biasOf b) j := by
  unfold k0_pay1 pre
  simp only [shapeCast_self]
  have ex : matmul (φ₁ := .bf16) (φ₂ := .bf16) dot_S256x1024_S4096x1024_S256x4096_1_1_0_0_n_n none (truncf .bf16 x bitsLt_bf16_f32) wx (constant (F := Ideal) S256x4096 .f32 0x00000000#32) (ix2 u j)
      = ∑ k : Fin 1024, x (ix2 u k) * wx (ix2 j k) :=
    LibDotRows.matmul_zero_at (M := 256) (K := 1024) (N := 4096) (φ₁ := .bf16) (φ₂ := .bf16) DD none rfl rfl lhs0 lhs1 rhs0 rhs1 (truncf .bf16 x bitsLt_bf16_f32) wx u j
  have eh : matmul (φ₁ := .bf16) (φ₂ := .bf16) dot_S256x1024_S4096x1024_S256x4096_1_1_0_0_n_n none (truncf .bf16 h bitsLt_bf16_f32) wh (constant (F := Ideal) S256x4096 .f32 0x00000000#32) (ix2 u j)
      = ∑ k : Fin 1024, h (ix2 u k) * wh (ix2 j k) :=
    LibDotRows.matmul_zero_at (M := 256) (K := 1024) (N := 4096) (φ₁ := .bf16) (φ₂ := .bf16) DD none rfl rfl lhs0 lhs1 rhs0 rhs1 (truncf .bf16 h bitsLt_bf16_f32) wh u j
  rw [addf_apply, addf_apply, ex, eh,
    broadcastTo_apply b broadcasts_S1x4096_S256x4096 (ix2 u j) (ix2 (0 : Fin 1) j) (fun a => match a with
      | ⟨0, _⟩ => by show 0 = if (1 : Nat) = 1 then 0 else _; rw [if_pos rfl]
      | ⟨1, _⟩ => by show j.val = if (4096 : Nat) = 1 then 0 else j.val; rw [if_neg (by decide)])]

/-- Column q of the gate whose columns start at `off` is column off + q of z. -/
theorem gate_at (z : FVec Ideal S256x4096 .f32) (off : Nat) (hs : S256x4096.Slices ![0, off] S256x1024) (u : Fin 256) (q : Fin 1024)
    (jq : Fin 4096) (hj : jq.val = off + q.val) :
    extractStridedSlice S256x1024 ![0, off] z hs (ix2 u q) = z (ix2 u jq) :=
  extractStridedSlice_apply ![0, off] z hs (ix2 u q) (ix2 u jq) (fun a => match a with
    | ⟨0, _⟩ => by show u.val = 0 + u.val; omega
    | ⟨1, _⟩ => by show jq.val = off + q.val; exact hj)

/-- Row u, column q of the stored new cell state. -/
theorem cell_at (x h cp : Vec Ideal S256x1024 .f32) (wx wh : Vec Ideal S4096x1024 .bf16) (b : Vec Ideal S1x4096 .f32) (u : Fin 256) (q : Fin 1024) :
    k0_pay2 (F := Ideal) x h wx wh b cp (ix2 u q)
      = cellAt (fun k => x (ix2 u k)) (fun k => h (ix2 u k)) wx wh (biasOf b) (cp (ix2 u q)) q := by
  unfold k0_pay2 cellAt
  show FloatOps.logistic (extractStridedSlice S256x1024 ![0, 1024] (k0_pay1 x h wx wh b) slices_S256x4096_o0_1024_S256x1024 (ix2 u q)) * cp (ix2 u q)
      + FloatOps.logistic (extractStridedSlice S256x1024 ![0, 0] (k0_pay1 x h wx wh b) slices_S256x4096_o0_0_S256x1024 (ix2 u q))
        * FloatOps.tanh (extractStridedSlice S256x1024 ![0, 2048] (k0_pay1 x h wx wh b) slices_S256x4096_o0_2048_S256x1024 (ix2 u q)) = _
  rw [gate_at _ 1024 _ u q (colF q) rfl, gate_at _ 0 _ u q (colI q) (by show q.val = 0 + q.val; omega), gate_at _ 2048 _ u q (colG q) rfl,
    pre_at, pre_at, pre_at]
  rfl

/-- Row u, column q of the stored new hidden state. -/
theorem hidden_at (x h cp : Vec Ideal S256x1024 .f32) (wx wh : Vec Ideal S4096x1024 .bf16) (b : Vec Ideal S1x4096 .f32) (u : Fin 256) (q : Fin 1024) :
    k0_pay3 (F := Ideal) x h wx wh b cp (ix2 u q)
      = hiddenAt (fun k => x (ix2 u k)) (fun k => h (ix2 u k)) wx wh (biasOf b) (cp (ix2 u q)) q := by
  unfold k0_pay3 hiddenAt
  show FloatOps.logistic (extractStridedSlice S256x1024 ![0, 3072] (k0_pay1 x h wx wh b) slices_S256x4096_o0_3072_S256x1024 (ix2 u q))
      * FloatOps.tanh (k0_pay2 x h wx wh b cp (ix2 u q)) = _
  rw [gate_at _ 3072 _ u q (colO q) rfl, pre_at, cell_at]
  rfl

end Cert.KernelIdeal.Block

end
-- ==== Proof.CellArrays.lean ====
/-
  From the blocks the region writes back to the two result arrays.

  As the region finds them, the stacked x-weights are the rows of W_i, W_f, W_g, W_o one under another, the stacked
  h-weights likewise, and the bias row is b_i, b_f, b_g, b_o side by side; x, h and c_prev are as launched.
  Point t stages rows 256·t … 256·t + 255 of x, h, c_prev, finds the stacks whole, and writes back rows
  256·t … 256·t + 255 of each result.  What it writes back is the block's restriction of the specification's array:
  row u of the block is row 256·t + u of the array, and the gate arithmetic of a row reads only that row.
  The 32 blocks cover the 8192 rows (row r is in block r / 256), so after the run each result array IS the
  specification's array of the launch contents.
-/
import proofs.«133425_j29850022707330_2_alg».proof.Proof.CellRunIdeal
import proofs.«133425_j29850022707330_2_alg».proof.Proof.CellBlock
import Idealize.ShloMosaic.Lib.Pipeline.Value
import Idealize.ShloMosaic.Lib.StableHlo.Run

set_option maxRecDepth 16384

noncomputable section

namespace Cert.KernelIdeal.Arrays

open Cert.KernelIdeal Cert.KernelIdeal.Gen Cert.KernelIdeal.Cell Cert.KernelIdeal.Block Cert.CellSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The stacks -/

/-- The four gates' x-weights, h-weights and biases stacked in the order i, f, g, o. -/
abbrev stackX (c : Dev nD) : FVec Ideal S4096x1024 .f32 :=
  concatenate S4096x1024 0 [⟨S1024x1024, (m ((c.tc : Thread nD τ).loc main_arg6))⟩, ⟨S1024x1024, (m ((c.tc : Thread nD τ).loc main_arg3))⟩, ⟨S1024x1024, (m ((c.tc : Thread nD τ).loc main_arg9))⟩, ⟨S1024x1024, (m ((c.tc : Thread nD τ).loc main_arg12))⟩] concatenates_S1024x1024_S1024x1024_S1024x1024_S1024x1024_S4096x1024_d0
abbrev stackH (c : Dev nD) : FVec Ideal S4096x1024 .f32 :=
  concatenate S4096x1024 0 [⟨S1024x1024, (m ((c.tc : Thread nD τ).loc main_arg8))⟩, ⟨S1024x1024, (m ((c.tc : Thread nD τ).loc main_arg5))⟩, ⟨S1024x1024, (m ((c.tc : Thread nD τ).loc main_arg11))⟩, ⟨S1024x1024, (m ((c.tc : Thread nD τ).loc main_arg14))⟩] concatenates_S1024x1024_S1024x1024_S1024x1024_S1024x1024_S4096x1024_d0
abbrev stackB (c : Dev nD) : FVec Ideal S4096 .f32 :=
  concatenate S4096 0 [⟨S1024, (m ((c.tc : Thread nD τ).loc main_arg7))⟩, ⟨S1024, (m ((c.tc : Thread nD τ).loc main_arg4))⟩, ⟨S1024, (m ((c.tc : Thread nD τ).loc main_arg10))⟩, ⟨S1024, (m ((c.tc : Thread nD τ).loc main_arg13))⟩] concatenates_S1024_S1024_S1024_S1024_S4096_d0

/-- What the region finds in the three arrays the host operations wrote for it. -/
theorem found_wx (c : Dev nD) : (V m c main_v1 : S4096x1024.Idx → EReal) = truncf .bf16 (stackX m c) bitsLt_bf16_f32 := by
  dsimp only [V, hostOps0]; after_results; rfl
theorem found_wh (c : Dev nD) : (V m c main_v3 : S4096x1024.Idx → EReal) = truncf .bf16 (stackH m c) bitsLt_bf16_f32 := by
  dsimp only [V, hostOps0]; after_results; rfl
theorem found_b (c : Dev nD) : (V m c main_v5 : S1x4096.Idx → EReal) = shapeCast S1x4096 (stackB m c) shapeCasts_S4096_S1x4096 := by
  dsimp only [V, hostOps0]; after_results; rfl

/-- The bias row, read as a stack of biases, is the stack: the reshape to one row keeps the order. -/
theorem bias_row (c : Dev nD) : biasOf (V m c main_v5) = stackB m c := by
  rw [found_b]
  funext j
  show shapeCast S1x4096 (stackB m c) shapeCasts_S4096_S1x4096 (ix2 (0 : Fin 1) (j 0)) = stackB m c j
  refine (shapeCast_apply (stackB m c) shapeCasts_S4096_S1x4096 (ix2 (0 : Fin 1) (j 0)) j ?_)
  rw [Shape.rowMajor_val_one, Shape.rowMajor_val_two]
  show (j 0).val = 0 * 4096 + (j 0).val
  omega

/-! ## The grid -/

/-- Point t works on block row t of x, h, c_prev and of both results, and on the one block of each stack and of the bias. -/
theorem rows_of_point : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

theorem origin : (![0, 0] : Fin 2 → Nat) = fun _ => 0 := funext fun a => by fin_cases a <;> rfl

/-! ## A block of the specification -/

/-- If a block's rows are rows of the arrays at index `i` — row `y 0` of x and h is row `i 0`, the old state's entry at
    `y` is the array's at `i`, the stacks and the bias row are the arrays', the column is the same — then the stored new
    cell state at `y` is the specification's at `i`. -/
theorem cell_block (X H C : Acts.Idx → EReal) (Wx Wh : Stack.Idx → EReal) (B : Biases.Idx → EReal) (x h cp : Vec Ideal S256x1024 .f32) (wx wh : Vec Ideal S4096x1024 .bf16) (b : Vec Ideal S1x4096 .f32) (y : S256x1024.Idx) (i : Acts.Idx)
    (hx : ∀ k : Fin 1024, x (ix2 (y 0) k) = X (ix2 (i 0) k)) (hh : ∀ k : Fin 1024, h (ix2 (y 0) k) = H (ix2 (i 0) k)) (hc : cp y = C i)
    (hwx : (wx : Stack.Idx → EReal) = Wx) (hwh : (wh : Stack.Idx → EReal) = Wh) (hb : biasOf b = B) (hq : y 1 = i 1) :
    k0_pay2 (F := Ideal) x h wx wh b cp y = cNext X H C Wx Wh B i := by
  obtain ⟨u, q, rfl⟩ : ∃ (u : Fin 256) (q : Fin 1024), y = ix2 u q := ⟨y 0, y 1, eq_ix2 y⟩
  have ex : (fun k => x (ix2 u k)) = fun k => X (ix2 (i 0) k) := funext hx
  have eh : (fun k => h (ix2 u k)) = fun k => H (ix2 (i 0) k) := funext hh
  have eq' : q = i 1 := hq
  rw [cell_at, hc, ex, eh, eq']
  subst hwx hwh hb
  rfl

/-- The same for the stored new hidden state. -/
theorem hidden_block (X H C : Acts.Idx → EReal) (Wx Wh : Stack.Idx → EReal) (B : Biases.Idx → EReal) (x h cp : Vec Ideal S256x1024 .f32) (wx wh : Vec Ideal S4096x1024 .bf16) (b : Vec Ideal S1x4096 .f32) (y : S256x1024.Idx) (i : Acts.Idx)
    (hx : ∀ k : Fin 1024, x (ix2 (y 0) k) = X (ix2 (i 0) k)) (hh : ∀ k : Fin 1024, h (ix2 (y 0) k) = H (ix2 (i 0) k)) (hc : cp y = C i)
    (hwx : (wx : Stack.Idx → EReal) = Wx) (hwh : (wh : Stack.Idx → EReal) = Wh) (hb : biasOf b = B) (hq : y 1 = i 1) :
    k0_pay3 (F := Ideal) x h wx wh b cp y = hNext X H C Wx Wh B i := by
  obtain ⟨u, q, rfl⟩ : ∃ (u : Fin 256) (q : Fin 1024), y = ix2 u q := ⟨y 0, y 1, eq_ix2 y⟩
  have ex : (fun k => x (ix2 u k)) = fun k => X (ix2 (i 0) k) := funext hx
  have eh : (fun k => h (ix2 u k)) = fun k => H (ix2 (i 0) k) := funext hh
  have eq' : q = i 1 := hq
  rw [hidden_at, hc, ex, eh, eq']
  subst hwx hwh hb
  rfl

/-! ## What each point writes back -/

/-- Point t writes back block t of the specification's new hidden state of the arrays as the region finds them. -/
theorem wrote_h (c : Dev nD) (t : Fin cfg0.N) :
    (dats m 0 c).flushed 6 t = ((cfg0.win 6).blk t).view.read (Elt Ideal)
      (hNext (V m c main_arg0) (V m c main_arg1) (V m c main_arg2) (V m c main_v1) (V m c main_v3) (biasOf (V m c main_v5))) := by
  show (cfg0.win 6).cut (grid0.coords t) ((dats m 0 c).after 6 t) = _
  rw [after6]
  unfold hOut
  rw [View.canon_unit_zero origin]
  simp only [View.ld_unit_zero (S := S256x1024) origin, View.ld_unit_zero (S := S4096x1024) origin, View.ld_unit_zero (S := S1x4096) origin]
  obtain ⟨e00, e01, e10, e11, e20, e21, e30, e31, e40, e41, e50, e51, e60, e61, e70, e71⟩ := rows_of_point t
  funext y
  refine hidden_block (V m c main_arg0) (V m c main_arg1) (V m c main_arg2) (V m c main_v1) (V m c main_v3) (biasOf (V m c main_v5))
    (iblk m c 0 t) (iblk m c 1 t) (iblk m c 2 t) (iblk m c 3 t) (iblk m c 4 t) (iblk m c 5 t) y (((cfg0.win 6).blk t).view.emb y) ?_ ?_ ?_ ?_ ?_ ?_ ?_
  · intro k
    show V m c main_arg0 (((cfg0.win 0).blk t).view.emb (ix2 (y 0) k)) = V m c main_arg0 (ix2 ((((cfg0.win 6).blk t).view.emb y) 0) k)
    exact congrArg (V m c main_arg0) (funext fun a => Fin.ext (by
      match a with
      | ⟨0, _⟩ => show win0_0.index t (0 : Fin 2) * 256 + 1 * (y 0).val = win0_6.index t (0 : Fin 2) * 256 + 1 * (y 0).val; omega
      | ⟨1, _⟩ => show win0_0.index t (1 : Fin 2) * 1024 + 1 * k.val = k.val; omega))
  · intro k
    show V m c main_arg1 (((cfg0.win 1).blk t).view.emb (ix2 (y 0) k)) = V m c main_arg1 (ix2 ((((cfg0.win 6).blk t).view.emb y) 0) k)
    exact congrArg (V m c main_arg1) (funext fun a => Fin.ext (by
      match a with
      | ⟨0, _⟩ => show win0_1.index t (0 : Fin 2) * 256 + 1 * (y 0).val = win0_6.index t (0 : Fin 2) * 256 + 1 * (y 0).val; omega
      | ⟨1, _⟩ => show win0_1.index t (1 : Fin 2) * 1024 + 1 * k.val = k.val; omega))
  · show V m c main_arg2 (((cfg0.win 2).blk t).view.emb y) = V m c main_arg2 (((cfg0.win 6).blk t).view.emb y)
    exact congrArg (V m c main_arg2) (funext fun a => Fin.ext (by
      match a with
      | ⟨0, _⟩ => show win0_2.index t (0 : Fin 2) * 256 + 1 * (y 0).val = win0_6.index t (0 : Fin 2) * 256 + 1 * (y 0).val; omega
      | ⟨1, _⟩ => show win0_2.index t (1 : Fin 2) * 1024 + 1 * (y 1).val = win0_6.index t (1 : Fin 2) * 1024 + 1 * (y 1).val; omega))
  · funext z
    show V m c main_v1 (((cfg0.win 3).blk t).view.emb z) = V m c main_v1 z
    exact congrArg (V m c main_v1) (funext fun a => Fin.ext (by
      match a with
      | ⟨0, _⟩ => show win0_3.index t (0 : Fin 2) * 4096 + 1 * (z 0).val = (z 0).val; omega
      | ⟨1, _⟩ => show win0_3.index t (1 : Fin 2) * 1024 + 1 * (z 1).val = (z 1).val; omega))
  · funext z
    show V m c main_v3 (((cfg0.win 4).blk t).view.emb z) = V m c main_v3 z
    exact congrArg (V m c main_v3) (funext fun a => Fin.ext (by
      match a with
      | ⟨0, _⟩ => show win0_4.index t (0 : Fin 2) * 4096 + 1 * (z 0).val = (z 0).val; omega
      | ⟨1, _⟩ => show win0_4.index t (1 : Fin 2) * 1024 + 1 * (z 1).val = (z 1).val; omega))
  · funext j
    show V m c main_v5 (((cfg0.win 5).blk t).view.emb (ix2 (0 : Fin 1) (j 0))) = V m c main_v5 (ix2 (0 : Fin 1) (j 0))
    exact congrArg (V m c main_v5) (funext fun a => Fin.ext (by
      match a with
      | ⟨0, _⟩ => show win0_5.index t (0 : Fin 2) * 1 + 1 * 0 = 0; omega
      | ⟨1, _⟩ => show win0_5.index t (1 : Fin 2) * 4096 + 1 * (j 0).val = (j 0).val; omega))
  · apply Fin.ext
    show (y 1).val = win0_6.index t (1 : Fin 2) * 1024 + 1 * (y 1).val
    omega

/-- Point t writes back block t of the specification's new cell state of the arrays as the region finds them. -/
theorem wrote_c (c : Dev nD) (t : Fin cfg0.N) :
    (dats m 0 c).flushed 7 t = ((cfg0.win 7).blk t).view.read (Elt Ideal)
      (cNext (V m c main_arg0) (V m c main_arg1) (V m c main_arg2) (V m c main_v1) (V m c main_v3) (biasOf (V m c main_v5))) := by
  show (cfg0.win 7).cut (grid0.coords t) ((dats m 0 c).after 7 t) = _
  rw [after7]
  unfold cOut
  rw [View.canon_unit_zero origin]
  simp only [View.ld_unit_zero (S := S256x1024) origin, View.ld_unit_zero (S := S4096x1024) origin, View.ld_unit_zero (S := S1x4096) origin]
  obtain ⟨e00, e01, e10, e11, e20, e21, e30, e31, e40, e41, e50, e51, e60, e61, e70, e71⟩ := rows_of_point t
  funext y
  refine cell_block (V m c main_arg0) (V m c main_arg1) (V m c main_arg2) (V m c main_v1) (V m c main_v3) (biasOf (V m c main_v5))
    (iblk m c 0 t) (iblk m c 1 t) (iblk m c 2 t) (iblk m c 3 t) (iblk m c 4 t) (iblk m c 5 t) y (((cfg0.win 7).blk t).view.emb y) ?_ ?_ ?_ ?_ ?_ ?_ ?_
  · intro k
    show V m c main_arg0 (((cfg0.win 0).blk t).view.emb (ix2 (y 0) k)) = V m c main_arg0 (ix2 ((((cfg0.win 7).blk t).view.emb y) 0) k)
    exact congrArg (V m c main_arg0) (funext fun a => Fin.ext (by
      match a with
      | ⟨0, _⟩ => show win0_0.index t (0 : Fin 2) * 256 + 1 * (y 0).val = win0_7.index t (0 : Fin 2) * 256 + 1 * (y 0).val; omega
      | ⟨1, _⟩ => show win0_0.index t (1 : Fin 2) * 1024 + 1 * k.val = k.val; omega))
  · intro k
    show V m c main_arg1 (((cfg0.win 1).blk t).view.emb (ix2 (y 0) k)) = V m c main_arg1 (ix2 ((((cfg0.win 7).blk t).view.emb y) 0) k)
    exact congrArg (V m c main_arg1) (funext fun a => Fin.ext (by
      match a with
      | ⟨0, _⟩ => show win0_1.index t (0 : Fin 2) * 256 + 1 * (y 0).val = win0_7.index t (0 : Fin 2) * 256 + 1 * (y 0).val; omega
      | ⟨1, _⟩ => show win0_1.index t (1 : Fin 2) * 1024 + 1 * k.val = k.val; omega))
  · show V m c main_arg2 (((cfg0.win 2).blk t).view.emb y) = V m c main_arg2 (((cfg0.win 7).blk t).view.emb y)
    exact congrArg (V m c main_arg2) (funext fun a => Fin.ext (by
      match a with
      | ⟨0, _⟩ => show win0_2.index t (0 : Fin 2) * 256 + 1 * (y 0).val = win0_7.index t (0 : Fin 2) * 256 + 1 * (y 0).val; omega
      | ⟨1, _⟩ => show win0_2.index t (1 : Fin 2) * 1024 + 1 * (y 1).val = win0_7.index t (1 : Fin 2) * 1024 + 1 * (y 1).val; omega))
  · funext z
    show V m c main_v1 (((cfg0.win 3).blk t).view.emb z) = V m c main_v1 z
    exact congrArg (V m c main_v1) (funext fun a => Fin.ext (by
      match a with
      | ⟨0, _⟩ => show win0_3.index t (0 : Fin 2) * 4096 + 1 * (z 0).val = (z 0).val; omega
      | ⟨1, _⟩ => show win0_3.index t (1 : Fin 2) * 1024 + 1 * (z 1).val = (z 1).val; omega))
  · funext z
    show V m c main_v3 (((cfg0.win 4).blk t).view.emb z) = V m c main_v3 z
    exact congrArg (V m c main_v3) (funext fun a => Fin.ext (by
      match a with
      | ⟨0, _⟩ => show win0_4.index t (0 : Fin 2) * 4096 + 1 * (z 0).val = (z 0).val; omega
      | ⟨1, _⟩ => show win0_4.index t (1 : Fin 2) * 1024 + 1 * (z 1).val = (z 1).val; omega))
  · funext j
    show V m c main_v5 (((cfg0.win 5).blk t).view.emb (ix2 (0 : Fin 1) (j 0))) = V m c main_v5 (ix2 (0 : Fin 1) (j 0))
    exact congrArg (V m c main_v5) (funext fun a => Fin.ext (by
      match a with
      | ⟨0, _⟩ => show win0_5.index t (0 : Fin 2) * 1 + 1 * 0 = 0; omega
      | ⟨1, _⟩ => show win0_5.index t (1 : Fin 2) * 4096 + 1 * (j 0).val = (j 0).val; omega))
  · apply Fin.ext
    show (y 1).val = win0_7.index t (1 : Fin 2) * 1024 + 1 * (y 1).val
    omega

/-! ## The blocks cover the arrays -/

/-- An index is in point t's block of result 0 iff each coordinate is in the block's range on its axis. -/
theorem mem_block6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Row r of the array is in the block of point r / 256. -/
theorem covered6 (i : S8192x1024.Idx) : ∃ t : Fin cfg0.N, i ∈ ((cfg0.win 6).blk t).view.set := by
  have hi0 : (i 0).val < 8192 := (i 0).isLt
  have hi1 : (i 1).val < 1024 := (i 1).isLt
  have hlt : (i 0).val / 256 < cfg0.N := by show (i 0).val / 256 < 32; omega
  obtain ⟨e00, e01, e10, e11, e20, e21, e30, e31, e40, e41, e50, e51, e60, e61, e70, e71⟩ := rows_of_point ⟨(i 0).val / 256, hlt⟩
  have r0 : win0_6.index ⟨(i 0).val / 256, hlt⟩ (0 : Fin 2) = (i 0).val / 256 := e60
  refine ⟨⟨(i 0).val / 256, hlt⟩, ?_⟩
  rw [mem_block6]
  intro a
  match a with
  | ⟨0, _⟩ => show win0_6.index ⟨(i 0).val / 256, hlt⟩ (0 : Fin 2) * 256 ≤ (i 0).val ∧ (i 0).val < win0_6.index ⟨(i 0).val / 256, hlt⟩ (0 : Fin 2) * 256 + 256; omega
  | ⟨1, _⟩ => show win0_6.index ⟨(i 0).val / 256, hlt⟩ (1 : Fin 2) * 1024 ≤ (i 1).val ∧ (i 1).val < win0_6.index ⟨(i 0).val / 256, hlt⟩ (1 : Fin 2) * 1024 + 1024; omega

/-- An index is in point t's block of result 1 iff each coordinate is in the block's range on its axis. -/
theorem mem_block7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Row r of the array is in the block of point r / 256. -/
theorem covered7 (i : S8192x1024.Idx) : ∃ t : Fin cfg0.N, i ∈ ((cfg0.win 7).blk t).view.set := by
  have hi0 : (i 0).val < 8192 := (i 0).isLt
  have hi1 : (i 1).val < 1024 := (i 1).isLt
  have hlt : (i 0).val / 256 < cfg0.N := by show (i 0).val / 256 < 32; omega
  obtain ⟨e00, e01, e10, e11, e20, e21, e30, e31, e40, e41, e50, e51, e60, e61, e70, e71⟩ := rows_of_point ⟨(i 0).val / 256, hlt⟩
  have r0 : win0_7.index ⟨(i 0).val / 256, hlt⟩ (0 : Fin 2) = (i 0).val / 256 := e70
  refine ⟨⟨(i 0).val / 256, hlt⟩, ?_⟩
  rw [mem_block7]
  intro a
  match a with
  | ⟨0, _⟩ => show win0_7.index ⟨(i 0).val / 256, hlt⟩ (0 : Fin 2) * 256 ≤ (i 0).val ∧ (i 0).val < win0_7.index ⟨(i 0).val / 256, hlt⟩ (0 : Fin 2) * 256 + 256; omega
  | ⟨1, _⟩ => show win0_7.index ⟨(i 0).val / 256, hlt⟩ (1 : Fin 2) * 1024 ≤ (i 1).val ∧ (i 1).val < win0_7.index ⟨(i 0).val / 256, hlt⟩ (1 : Fin 2) * 1024 + 1024; omega

/-! ## The result arrays after the run -/

/-- After the last write-back the first result array is the specification's new hidden state of the launch contents. -/
theorem final_h (c : Dev nD) : (dats m 0 c).arrAt 6 cfg0.N
    = hNext (m ((c.tc : Thread nD τ).loc main_arg0)) (m ((c.tc : Thread nD τ).loc main_arg1)) (m ((c.tc : Thread nD τ).loc main_arg2)) (stackX m c) (stackH m c) (stackB m c) := by
  have e := (dats m 0 c).arrAt_eq_of_cover 6 _ (fun t _ => wrote_h m c t) (fun i => by
    obtain ⟨t, ht⟩ := covered6 i
    exact ⟨t, flush0_6 t, ht⟩)
  rw [e, V_main_arg0, V_main_arg1, V_main_arg2, found_wx, found_wh, bias_row]
  rfl

/-- After the last write-back the second result array is the specification's new cell state of the launch contents. -/
theorem final_c (c : Dev nD) : (dats m 0 c).arrAt 7 cfg0.N
    = cNext (m ((c.tc : Thread nD τ).loc main_arg0)) (m ((c.tc : Thread nD τ).loc main_arg1)) (m ((c.tc : Thread nD τ).loc main_arg2)) (stackX m c) (stackH m c) (stackB m c) := by
  have e := (dats m 0 c).arrAt_eq_of_cover 7 _ (fun t _ => wrote_c m c t) (fun i => by
    obtain ⟨t, ht⟩ := covered7 i
    exact ⟨t, flush0_7 t, ht⟩)
  rw [e, V_main_arg0, V_main_arg1, V_main_arg2, found_wx, found_wh, bias_row]
  rfl

/-! ## The run, read -/

/-- Every weakly fair execution of the idealized kernel program terminates with the first result at the specification's
    new hidden state and the second at its new cell state of the launch contents, the fifteen arguments unchanged. -/
theorem run : θ_run defs (onTc (τ := τ) (main (F := Ideal))) ⟨m, fun _ => 0, ρ⟩ fun r => ∀ c : Dev nD,
      r.2.mem ((c.tc : Thread nD τ).loc main_v6_0) = hNext (m ((c.tc : Thread nD τ).loc main_arg0)) (m ((c.tc : Thread nD τ).loc main_arg1)) (m ((c.tc : Thread nD τ).loc main_arg2)) (stackX m c) (stackH m c) (stackB m c)
      ∧ r.2.mem ((c.tc : Thread nD τ).loc main_v6_1) = cNext (m ((c.tc : Thread nD τ).loc main_arg0)) (m ((c.tc : Thread nD τ).loc main_arg1)) (m ((c.tc : Thread nD τ).loc main_arg2)) (stackX m c) (stackH m c) (stackB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final_h m c), ((h c).1 7).trans (final_c m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Arrays

end
-- ==== Proof.CellReference.lean ====
/-
  The reference program's two results are the specification's arrays.

  The reference stacks the weights and biases, forms z = (x · Wxᵀ + h · Whᵀ) + bias with the transposed stacks as the
  right operands of two plain matrix products and the bias repeated on every row, splits z into four [8192, 1024]
  gates, spells the logistic function as 1 / (1 + e^(−z)) and combines.  Read at an index: a product's entry is a sum
  over the 1024 contracted coordinates, an entry (k, j) of a transposed stack is entry (j, k) of the stack, the
  repeated bias reads the stack of biases at the column, a slice at column offset 1024·g reads column 1024·g + q,
  and the spelt-out logistic with the literal 1.0 is the logistic function.
-/
import proofs.«133425_j29850022707330_2_alg».proof.Proof.Gen.ReferenceIdeal.Read
import proofs.«133425_j29850022707330_2_alg».proof.Proof.CellSpec

noncomputable section

namespace Cert.ReferenceIdeal.Cell

open Cert.ReferenceIdeal Cert.ReferenceIdeal.Gen Cert.ReferenceIdeal.Read Cert.CellSpec
open Idealize.ShloMosaic Idealize.ShloMosaic.ValueIdx

/-- Row `i 0`, gate column `i 1` of the reference's pre-activation array. -/
theorem pre_eq (x0 x1 : (⟨S8192x1024, .f32⟩ : BufTy).Contents (Elt Ideal)) (x3 x5 x6 x8 x9 x11 x12 x14 : (⟨S1024x1024, .f32⟩ : BufTy).Contents (Elt Ideal)) (x4 x7 x10 x13 : (⟨S1024, .f32⟩ : BufTy).Contents (Elt Ideal)) (i : S8192x4096.Idx) :
    val_main_v10 (F := Ideal) x0 x1 x3 x4 x5 x6 x7 x8 x9 x10 x11 x12 x13 x14 i = pre (fun k => x0 (ix2 (i 0) k)) (fun k => x1 (ix2 (i 0) k)) (val_main_v0 (F := Ideal) x3 x6 x9 x12) (val_main_v1 (F := Ideal) x5 x8 x11 x14) (val_main_v2 (F := Ideal) x4 x7 x10 x13) (i 1) := by
  have el : ∀ k : Fin 1024, lidx_main_v4 i k = ix2 (i 0) k := fun k => funext fun a => by match a with | ⟨0, _⟩ => rfl | ⟨1, _⟩ => rfl
  have er : ∀ k : Fin 1024, idx_main_v3 (ridx_main_v4 i k) = ix2 (i 1) k := fun k => funext fun a => by match a with | ⟨0, _⟩ => rfl | ⟨1, _⟩ => rfl
  have el' : ∀ k : Fin 1024, lidx_main_v6 i k = ix2 (i 0) k := fun k => funext fun a => by match a with | ⟨0, _⟩ => rfl | ⟨1, _⟩ => rfl
  have er' : ∀ k : Fin 1024, idx_main_v5 (ridx_main_v6 i k) = ix2 (i 1) k := fun k => funext fun a => by match a with | ⟨0, _⟩ => rfl | ⟨1, _⟩ => rfl
  have eb : idx_main_v8 (idx_main_v9 i) = ix1 (i 1) := funext fun a => by match a with | ⟨0, _⟩ => rfl
  show (val_main_v4 (F := Ideal) x0 x3 x6 x9 x12 i + val_main_v6 (F := Ideal) x1 x5 x8 x11 x14 i) + val_main_v9 (F := Ideal) x4 x7 x10 x13 i = _
  rw [val_main_v4_apply, val_main_v6_apply, val_main_v9_apply, val_main_v8_apply, eb]
  simp only [val_main_v3_apply, val_main_v5_apply, el, er, el', er']
  rfl

/-- The input gate. -/
theorem gate_i (x0 x1 : (⟨S8192x1024, .f32⟩ : BufTy).Contents (Elt Ideal)) (x3 x5 x6 x8 x9 x11 x12 x14 : (⟨S1024x1024, .f32⟩ : BufTy).Contents (Elt Ideal)) (x4 x7 x10 x13 : (⟨S1024, .f32⟩ : BufTy).Contents (Elt Ideal)) (i : S8192x1024.Idx) :
    val_main_v20 (F := Ideal) x0 x1 x3 x4 x5 x6 x7 x8 x9 x10 x11 x12 x13 x14 i = Ideal.logistic (pre (fun k => x0 (ix2 (i 0) k)) (fun k => x1 (ix2 (i 0) k)) (val_main_v0 (F := Ideal) x3 x6 x9 x12) (val_main_v1 (F := Ideal) x5 x8 x11 x14) (val_main_v2 (F := Ideal) x4 x7 x10 x13) (colI (i 1))) := by
  rw [← logistic_spelt]
  show Ideal.div (val_main_v19 (F := Ideal) i) (val_main_v17 (F := Ideal) i + Ideal.exp (-(val_main_v11 (F := Ideal) x0 x1 x3 x4 x5 x6 x7 x8 x9 x10 x11 x12 x13 x14 i))) = _
  rw [val_main_v19_apply, val_main_v17_apply, val_main_v11_apply, pre_eq]
  rfl
/-- The forget gate. -/
theorem gate_f (x0 x1 : (⟨S8192x1024, .f32⟩ : BufTy).Contents (Elt Ideal)) (x3 x5 x6 x8 x9 x11 x12 x14 : (⟨S1024x1024, .f32⟩ : BufTy).Contents (Elt Ideal)) (x4 x7 x10 x13 : (⟨S1024, .f32⟩ : BufTy).Contents (Elt Ideal)) (i : S8192x1024.Idx) :
    val_main_v26 (F := Ideal) x0 x1 x3 x4 x5 x6 x7 x8 x9 x10 x11 x12 x13 x14 i = Ideal.logistic (pre (fun k => x0 (ix2 (i 0) k)) (fun k => x1 (ix2 (i 0) k)) (val_main_v0 (F := Ideal) x3 x6 x9 x12) (val_main_v1 (F := Ideal) x5 x8 x11 x14) (val_main_v2 (F := Ideal) x4 x7 x10 x13) (colF (i 1))) := by
  rw [← logistic_spelt]
  show Ideal.div (val_main_v25 (F := Ideal) i) (val_main_v23 (F := Ideal) i + Ideal.exp (-(val_main_v12 (F := Ideal) x0 x1 x3 x4 x5 x6 x7 x8 x9 x10 x11 x12 x13 x14 i))) = _
  rw [val_main_v25_apply, val_main_v23_apply, val_main_v12_apply, pre_eq]
  rfl
/-- The output gate. -/
theorem gate_o (x0 x1 : (⟨S8192x1024, .f32⟩ : BufTy).Contents (Elt Ideal)) (x3 x5 x6 x8 x9 x11 x12 x14 : (⟨S1024x1024, .f32⟩ : BufTy).Contents (Elt Ideal)) (x4 x7 x10 x13 : (⟨S1024, .f32⟩ : BufTy).Contents (Elt Ideal)) (i : S8192x1024.Idx) :
    val_main_v33 (F := Ideal) x0 x1 x3 x4 x5 x6 x7 x8 x9 x10 x11 x12 x13 x14 i = Ideal.logistic (pre (fun k => x0 (ix2 (i 0) k)) (fun k => x1 (ix2 (i 0) k)) (val_main_v0 (F := Ideal) x3 x6 x9 x12) (val_main_v1 (F := Ideal) x5 x8 x11 x14) (val_main_v2 (F := Ideal) x4 x7 x10 x13) (colO (i 1))) := by
  rw [← logistic_spelt]
  show Ideal.div (val_main_v32 (F := Ideal) i) (val_main_v30 (F := Ideal) i + Ideal.exp (-(val_main_v14 (F := Ideal) x0 x1 x3 x4 x5 x6 x7 x8 x9 x10 x11 x12 x13 x14 i))) = _
  rw [val_main_v32_apply, val_main_v30_apply, val_main_v14_apply, pre_eq]
  rfl

/-- The candidate. -/
theorem cand (x0 x1 : (⟨S8192x1024, .f32⟩ : BufTy).Contents (Elt Ideal)) (x3 x5 x6 x8 x9 x11 x12 x14 : (⟨S1024x1024, .f32⟩ : BufTy).Contents (Elt Ideal)) (x4 x7 x10 x13 : (⟨S1024, .f32⟩ : BufTy).Contents (Elt Ideal)) (i : S8192x1024.Idx) :
    val_main_v27 (F := Ideal) x0 x1 x3 x4 x5 x6 x7 x8 x9 x10 x11 x12 x13 x14 i = Ideal.tanh (pre (fun k => x0 (ix2 (i 0) k)) (fun k => x1 (ix2 (i 0) k)) (val_main_v0 (F := Ideal) x3 x6 x9 x12) (val_main_v1 (F := Ideal) x5 x8 x11 x14) (val_main_v2 (F := Ideal) x4 x7 x10 x13) (colG (i 1))) := by
  show Ideal.tanh (val_main_v13 (F := Ideal) x0 x1 x3 x4 x5 x6 x7 x8 x9 x10 x11 x12 x13 x14 i) = _
  rw [val_main_v13_apply, pre_eq]
  rfl

/-- The reference's new cell state is the specification's. -/
theorem cell_eq (x0 x1 x2 : (⟨S8192x1024, .f32⟩ : BufTy).Contents (Elt Ideal)) (x3 x5 x6 x8 x9 x11 x12 x14 : (⟨S1024x1024, .f32⟩ : BufTy).Contents (Elt Ideal)) (x4 x7 x10 x13 : (⟨S1024, .f32⟩ : BufTy).Contents (Elt Ideal)) :
    val_main_v36 (F := Ideal) x0 x1 x2 x3 x4 x5 x6 x7 x8 x9 x10 x11 x12 x13 x14 = cNext x0 x1 x2 (val_main_v0 (F := Ideal) x3 x6 x9 x12) (val_main_v1 (F := Ideal) x5 x8 x11 x14) (val_main_v2 (F := Ideal) x4 x7 x10 x13) := by
  funext i
  show val_main_v26 (F := Ideal) x0 x1 x3 x4 x5 x6 x7 x8 x9 x10 x11 x12 x13 x14 i * x2 i + val_main_v20 (F := Ideal) x0 x1 x3 x4 x5 x6 x7 x8 x9 x10 x11 x12 x13 x14 i * val_main_v27 (F := Ideal) x0 x1 x3 x4 x5 x6 x7 x8 x9 x10 x11 x12 x13 x14 i = _
  rw [gate_f, gate_i, cand]
  rfl

/-- The reference's new hidden state is the specification's. -/
theorem hidden_eq (x0 x1 x2 : (⟨S8192x1024, .f32⟩ : BufTy).Contents (Elt Ideal)) (x3 x5 x6 x8 x9 x11 x12 x14 : (⟨S1024x1024, .f32⟩ : BufTy).Contents (Elt Ideal)) (x4 x7 x10 x13 : (⟨S1024, .f32⟩ : BufTy).Contents (Elt Ideal)) :
    val_main_v38 (F := Ideal) x0 x1 x2 x3 x4 x5 x6 x7 x8 x9 x10 x11 x12 x13 x14 = hNext x0 x1 x2 (val_main_v0 (F := Ideal) x3 x6 x9 x12) (val_main_v1 (F := Ideal) x5 x8 x11 x14) (val_main_v2 (F := Ideal) x4 x7 x10 x13) := by
  funext i
  show val_main_v33 (F := Ideal) x0 x1 x3 x4 x5 x6 x7 x8 x9 x10 x11 x12 x13 x14 i * Ideal.tanh (val_main_v36 (F := Ideal) x0 x1 x2 x3 x4 x5 x6 x7 x8 x9 x10 x11 x12 x13 x14 i) = _
  rw [gate_o, cell_eq]
  rfl

end Cert.ReferenceIdeal.Cell

end
-- ==== Proof.lean ====
/-
  An LSTM cell computed by one kernel over 32 blocks of 256 batch rows, against the same cell written with plain
  array operations.

  Both programs stack the four gates' weights and biases in the order i, f, g, o, form
  z = (x · Wxᵀ + h · Whᵀ) + b, cut z into the four gates, and set c' = σ(z_f) · c + σ(z_i) · tanh(z_g),
  h' = σ(z_o) · tanh(c').  On the extended reals a change of float format is the identity, a matrix product is the sum
  over the contracted coordinate however it is tiled, and the kernel's logistic operation IS 1 / (1 + e^(−z)), the
  expression the reference spells: so both programs end at the specification's two arrays (Proof/CellSpec.lean) of
  the launch contents, for every input — no finiteness is used.

  The frames: each kernel program's host operations write only their own result buffers and its region reads its
  inputs and writes its two results block by block (Proof/CellRun.lean at the word level, Proof/CellRunIdeal.lean at
  the extended reals); the reference's is its run with the results dropped.  The idealization rewrote nothing.
-/
import proofs.«133425_j29850022707330_2_alg».proof.Defs
import proofs.«133425_j29850022707330_2_alg».proof.Proof.Gen.Kernel
import proofs.«133425_j29850022707330_2_alg».proof.Proof.Gen.KernelIdeal
import proofs.«133425_j29850022707330_2_alg».proof.Proof.Gen.ReferenceIdeal
import proofs.«133425_j29850022707330_2_alg».proof.Proof.Gen.ReferenceIdeal.Run
import proofs.«133425_j29850022707330_2_alg».proof.Proof.Gen.ReferenceIdeal.Read
import proofs.«133425_j29850022707330_2_alg».proof.Proof.Gen.Pre_finite_inputs
import proofs.«133425_j29850022707330_2_alg».proof.Proof.CellRun
import proofs.«133425_j29850022707330_2_alg».proof.Proof.CellRunIdeal
import proofs.«133425_j29850022707330_2_alg».proof.Proof.CellArrays
import proofs.«133425_j29850022707330_2_alg».proof.Proof.CellReference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Cell.frame m ρ

theorem frame_ki : Cert.frame_KernelIdeal := fun m ρ _ => Cert.KernelIdeal.Cell.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end at the specification's arrays of arguments that agree. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v38_eq, Cert.ReferenceIdeal.Cell.hidden_eq, a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v36_eq, Cert.ReferenceIdeal.Cell.cell_eq, a0, a1, a2, a3, a4, a5, a6, a7, a8, a9, a10, a11, a12, a13, a14]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
